-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S10000x64 : Shape := ⟨2, ![10000, 64]⟩

abbrev nBuf : Space → Nat
  | .hbm => 81
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x1, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S1x64, .f32⟩
  | .hbm, ⟨80, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v57) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x1, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Projection.lean ====
/-
  The dense projection that both programs end with, as ONE function of three arrays: entry (r, q) of the result is the
  inner product of row r of the feature array with column q of the weight matrix, plus entry q of the bias vector.
  The feature array may have any number of rows: the whole array has 100000, a row block of it 10000, and an entry of a
  block is the entry of the whole array at the block's row offset (`entry_congr`).
-/
import Idealize.ShloMosaic.PureOps.Ideal
import Idealize.ShloMosaic.Lib.ValueIdx

noncomputable section

open scoped BigOperators

namespace Cert.Projection

open Idealize.ShloMosaic Idealize.ShloMosaic.ValueIdx

/-- Entry `(r, q)` of `h · w + b` over the extended reals: `∑ k, h[r, k] · w[k, q]`, then `+ b[q]`. -/
def entry {n : Nat} (h : (⟨2, ![n, 64]⟩ : Shape).Idx → EReal) (w : (⟨2, ![64, 64]⟩ : Shape).Idx → EReal)
    (b : (⟨1, ![64]⟩ : Shape).Idx → EReal) (r : Fin n) (q : Fin 64) : EReal :=
  (∑ k : Fin 64, h (ix2 r k) * w (ix2 k q)) + b (ix1 q)

/-- `h · w + b` as an array with `h`'s rows. -/
def affine {n : Nat} (h : (⟨2, ![n, 64]⟩ : Shape).Idx → EReal) (w : (⟨2, ![64, 64]⟩ : Shape).Idx → EReal)
    (b : (⟨1, ![64]⟩ : Shape).Idx → EReal) : (⟨2, ![n, 64]⟩ : Shape).Idx → EReal :=
  fun i => entry h w b (i 0) (i 1)

/-- An entry depends on one row of the features, one column of the weights and one entry of the bias: two triples of
    arrays that agree there have the same entry (the feature arrays may differ in their number of rows). -/
theorem entry_congr {n n' : Nat} (h : (⟨2, ![n, 64]⟩ : Shape).Idx → EReal) (h' : (⟨2, ![n', 64]⟩ : Shape).Idx → EReal)
    (w w' : (⟨2, ![64, 64]⟩ : Shape).Idx → EReal) (b b' : (⟨1, ![64]⟩ : Shape).Idx → EReal)
    (r : Fin n) (r' : Fin n') (q : Fin 64)
    (hh : ∀ k : Fin 64, h (ix2 r k) = h' (ix2 r' k)) (hw : ∀ k : Fin 64, w (ix2 k q) = w' (ix2 k q))
    (hb : b (ix1 q) = b' (ix1 q)) :
    entry h w b r q = entry h' w' b' r' q := by
  unfold entry
  rw [hb]
  exact congrArg (· + b' (ix1 q)) (Finset.sum_congr rfl fun k _ => by rw [hh k, hw k])

end Cert.Projection

end
-- ==== Proof.BlockProduct.lean ====
/-
  One row block of the projection. At a grid point the kernel body holds a block of 10000 feature rows, the whole 64 × 64
  weight matrix and the bias as a 1 × 64 row, and stores `rows · weights + bias`: the two operands go into the matrix
  unit in a narrower float format, which over the extended reals changes nothing, the unit accumulates into zeros, and
  the bias row is repeated down the block. Entry (p, q) of what is stored is therefore
  `∑ k, rows[p, k] · weights[k, q] + bias[0, q]`.
-/
import proofs.«163909_j4449586118805_1_alg».proof.Proof.Gen.KernelIdeal.Skeleton
import proofs.«163909_j4449586118805_1_alg».proof.Proof.Projection
import Idealize.ShloMosaic.Lib.Pipeline.Value
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The dimension numbers of the body's matrix product: rows of the left operand against columns of the right. -/
abbrev D : DotDims S10000x64 S64x64 S10000x64 := dot_S10000x64_S64x64_S10000x64_1_0_0_1_n_n

/-! ## Where the product reads its operands -/

/-- The left operand is read in the output entry's row … -/
theorem lhs_row (j : S10000x64.Idx) (κ : D.contr.Idx) : (D.lhsIdx j κ 0).val = (j 0).val := by
  unfold DotDims.lhsIdx
  rw [dif_neg (show ¬(0 : Fin S10000x64.rank) ∈ D.lhsBatch by decide), dif_pos (show (0 : Fin S10000x64.rank) ∈ D.lhsNonContracting by decide)]
  rfl
/-- … at the contracted position; -/
theorem lhs_col (j : S10000x64.Idx) (κ : D.contr.Idx) : (D.lhsIdx j κ 1).val = (κ ⟨0, by decide⟩).val :=
  D.lhsIdx_val_of_single rfl j κ
/-- the right operand at the contracted position … -/
theorem rhs_row (j : S10000x64.Idx) (κ : D.contr.Idx) : (D.rhsIdx j κ 0).val = (κ ⟨0, by decide⟩).val :=
  D.rhsIdx_val_of_single rfl j κ
/-- … in the output entry's column. -/
theorem rhs_col (j : S10000x64.Idx) (κ : D.contr.Idx) : (D.rhsIdx j κ 1).val = (j 1).val := by
  unfold DotDims.rhsIdx
  rw [dif_neg (show ¬(1 : Fin S64x64.rank) ∈ D.rhsBatch by decide), dif_pos (show (1 : Fin S64x64.rank) ∈ D.rhsNonContracting by decide)]
  rfl

/-! ## The product, and the stored block, at an entry -/

/-- The matrix unit's product into a zero accumulator, at entry `(p, q)`: the inner product of row `p` of the left operand
    with column `q` of the right one, the contracted axis re-indexed by its one coordinate. -/
theorem product_apply (l : FVec Ideal S10000x64 .bf16) (r : FVec Ideal S64x64 .bf16) (p : Fin 10000) (q : Fin 64) :
    matmul D none l r (constant (F := Ideal) S10000x64 .f32 0x00000000#32) (ix2 p q) = ∑ k : Fin 64, l (ix2 p k) * r (ix2 k q) := by
  simp only [matmul]
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 64 rfl rfl).symm k) = ix2 k q := funext fun a => Fin.ext (by
    match a with
    | ⟨0, _⟩ => exact (rhs_row _ _).trans hk
    | ⟨1, _⟩ => exact rhs_col _ _)
  rw [el, er]

/-- The bias row repeated down the block, at entry `(p, q)`, is the row's entry `q`. -/
theorem bias_apply (x2 : Vec Ideal S1x64 .f32) (p : Fin 10000) (q : Fin 64) :
    broadcastTo S10000x64 x2 broadcasts_S1x64_S10000x64 (ix2 p q) = x2 (ix2 (0 : Fin 1) q) :=
  broadcastTo_apply x2 broadcasts_S1x64_S10000x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- WHAT THE BODY STORES, at entry `(p, q)` of the block: row `p` of the loaded feature rows against column `q` of the
    loaded weights, plus entry `q` of the loaded bias row. -/
theorem stored_apply (x0 : Vec Ideal S10000x64 .f32) (x1 : Vec Ideal S64x64 .f32) (x2 : Vec Ideal S1x64 .f32)
    (p : Fin 10000) (q : Fin 64) :
    k0_pay1 (F := Ideal) x0 x1 x2 (ix2 p q) = (∑ k : Fin 64, x0 (ix2 p k) * x1 (ix2 k q)) + x2 (ix2 (0 : Fin 1) q) := by
  unfold k0_pay1
  show (_ : EReal) + _ = _
  refine congrArg₂ (· + ·) ((product_apply _ _ p q).trans (Finset.sum_congr rfl fun k _ => ?_)) ?_
  · show shapeCast S10000x64 x0 shapeCasts_S10000x64_S10000x64 (ix2 p k) * x1 (ix2 k q) = _
    rw [shapeCast_self]
  · rw [shapeCast_self]
    exact bias_apply x2 p q

/-- THE STORED BLOCK IS A BLOCK OF THE PROJECTION. Let the loaded feature rows be the rows of a 100000-row array `h` from
    row `r - p` on (`h0`: row `p` of the block is row `r` of `h`), the loaded weights be `w` in column `q` (`h1`) and the
    loaded bias row be `b` at `q` (`h2`). Then entry `(p, q)` of what the body stores is entry `(r, q)` of `h · w + b`. -/
theorem stored_eq_affine (x0 : Vec Ideal S10000x64 .f32) (x1 : Vec Ideal S64x64 .f32) (x2 : Vec Ideal S1x64 .f32)
    (h : S100000x64.Idx → EReal) (w : S64x64.Idx → EReal) (b : S64.Idx → EReal)
    (y : S10000x64.Idx) (i : S100000x64.Idx) (p : Fin 10000) (q : Fin 64) (r : Fin 100000)
    (hy : y = ix2 p q) (hi : i = ix2 r q)
    (h0 : ∀ k : Fin 64, x0 (ix2 p k) = h (ix2 r k)) (h1 : ∀ k : Fin 64, x1 (ix2 k q) = w (ix2 k q))
    (h2 : x2 (ix2 (0 : Fin 1) q) = b (ix1 q)) :
    k0_pay1 (F := Ideal) x0 x1 x2 y = Cert.Projection.affine h w b i := by
  subst hy hi
  refine (stored_apply x0 x1 x2 p q).trans ?_
  show _ = Cert.Projection.entry h w b r q
  unfold Cert.Projection.entry
  rw [h2]
  exact congrArg (· + b (ix1 q)) (Finset.sum_congr rfl fun k _ => by rw [h0 k, h1 k])

end Cert.KernelIdeal.BlockProduct

end
-- ==== Proof.RowBlocks.lean ====
/-
  From row blocks to the whole array. The grid has ten points; point `t` loads rows `10000 t … 10000 t + 9999` of the
  propagated features (the array the host operations before the launch leave), the whole weight matrix and the whole
  bias row, and writes back rows `10000 t … 10000 t + 9999` of the result. What it writes back is that row block of the
  projection of the three arrays (`flushed_eq`), the ten row blocks tile the 100000 rows (`cover`), so the result
  array ends as the projection (`final`, `run`).
-/
import proofs.«163909_j4449586118805_1_alg».proof.Proof.Gen.KernelIdeal.Value
import proofs.«163909_j4449586118805_1_alg».proof.Proof.BlockProduct
import proofs.«163909_j4449586118805_1_alg».proof.Proof.Projection
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.RowBlocks

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the feature window and the result window are at row block `t`, column block 0;
    the weight and bias windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The bias as the launch finds it: a 1 × 64 row, read as a vector. -/
def biasRow (c : Dev nD) : S64.Idx → EReal :=
  fun j => (V m c (Pipeline.arrRef spec0 2) : S1x64.Idx → EReal) (ix2 (0 : Fin 1) (j 0 : Fin 64))

/-- THE RESULT: the projection of the three arrays the launch finds behind its three input windows — the propagated
    features, the weights, the bias. -/
def result (c : Dev nD) : S100000x64.Idx → EReal :=
  Cert.Projection.affine (V m c (Pipeline.arrRef spec0 0) : S100000x64.Idx → EReal)
    (V m c (Pipeline.arrRef spec0 1) : S64x64.Idx → EReal) (biasRow m c)

/-- WHAT POINT `t` WRITES BACK is row block `t` of `result`. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx_facts t
  have ht : t.val < 10 := by have h := t.isLt; have hN : cfg0.N = 10 := N_0; omega
  generalize hR : result m c = R
  funext j
  have hj0 : (j 0).val < 10000 := (j 0).isLt
  have hj1 : (j 1).val < 64 := (j 1).isLt
  rw [View.read_apply, cast_eq]
  show k0_pay1 (F := Ideal) (iblk m c 0 t) (iblk m c 1 t) (iblk m c 2 t) ((cfg0.win 3).xinj (grid0.coords t) j) = _
  subst hR
  refine Cert.KernelIdeal.BlockProduct.stored_eq_affine (iblk m c 0 t) (iblk m c 1 t) (iblk m c 2 t)
    (V m c (Pipeline.arrRef spec0 0)) (V m c (Pipeline.arrRef spec0 1)) (biasRow m c) _ _
    ⟨(j 0).val, hj0⟩ ⟨(j 1).val, hj1⟩ ⟨t.val * 10000 + (j 0).val, by omega⟩ ?_ ?_ ?_ ?_ ?_
  · funext a; apply Fin.ext
    match a with
    | ⟨0, _⟩ => rfl
    | ⟨1, _⟩ => rfl
  · funext a; apply Fin.ext
    match a with
    | ⟨0, _⟩ => show win0_3.index t (0 : Fin 2) * 10000 + 1 * (j 0).val = t.val * 10000 + (j 0).val; rw [e30]; omega
    | ⟨1, _⟩ => show win0_3.index t (1 : Fin 2) * 64 + 1 * (j 1).val = (j 1).val; rw [e31]; omega
  · intro k
    unfold iblk
    rw [View.read_apply, cast_eq]
    refine congrArg (V m c (Pipeline.arrRef spec0 0)) (funext fun a => Fin.ext ?_)
    match a with
    | ⟨0, _⟩ => show win0_0.index t (0 : Fin 2) * 10000 + 1 * (j 0).val = t.val * 10000 + (j 0).val; rw [e00]; omega
    | ⟨1, _⟩ => show win0_0.index t (1 : Fin 2) * 64 + 1 * k.val = k.val; rw [e01]; omega
  · intro k
    unfold iblk
    rw [View.read_apply, cast_eq]
    refine congrArg (V m c (Pipeline.arrRef spec0 1)) (funext fun a => Fin.ext ?_)
    match a with
    | ⟨0, _⟩ => show win0_1.index t (0 : Fin 2) * 64 + 1 * k.val = k.val; rw [e10]; omega
    | ⟨1, _⟩ => show win0_1.index t (1 : Fin 2) * 64 + 1 * (j 1).val = (j 1).val; rw [e11]; omega
  · unfold iblk
    rw [View.read_apply, cast_eq]
    show V m c (Pipeline.arrRef spec0 2) _ = V m c (Pipeline.arrRef spec0 2) (ix2 (0 : Fin 1) (⟨(j 1).val, hj1⟩ : Fin 64))
    refine congrArg (V m c (Pipeline.arrRef spec0 2)) (funext fun a => Fin.ext ?_)
    match a with
    | ⟨0, _⟩ => show win0_2.index t (0 : Fin 2) * 1 + 1 * 0 = 0; rw [e20]
    | ⟨1, _⟩ => show win0_2.index t (1 : Fin 2) * 64 + 1 * (j 1).val = (j 1).val; rw [e21]; omega

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v59).slice (win0_3.rect t)).set ↔ _
  rw [View.set_slice_whole, Rect.mem_set_unit]
  exact Iff.rfl

/-- The ten row blocks tile the array: row `r` is in the block of point `r / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  obtain ⟨_, _, _, _, _, _, e30, e31⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e30, ht]; omega
  | ⟨1, _⟩ =>
    show win0_3.index t (1 : Fin 2) * 64 ≤ (i 1).val ∧ (i 1).val < win0_3.index t (1 : Fin 2) * 64 + 64
    rw [e31]; omega

/-- So the result array ends holding `result`. -/
theorem final (c : Dev nD) : (dats m 0 c).arrAt 3 cfg0.N = result m c :=
  (dats m 0 c).arrAt_eq_of_cover 3 (result m c) (fun t _ => flushed_eq m c t) cover

/-- The kernel program's run, read: the result array at `result`, the five arguments unchanged. -/
theorem run : θ_run defs (onTc (τ := τ) (main (F := Ideal))) ⟨m, fun _ => 0, ρ⟩ fun r => ∀ c : Dev nD,
      r.2.mem ((c : Thread nD τ).loc main_v59) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.RowBlocks

end
-- ==== Proof.LaunchArrays.lean ====
/-
  The arrays the launch finds. Before the launch the host propagates the features over the graph: degrees by a
  scatter-add of the edge weights, their inverse square roots selected where the degree is positive, the edge
  normalisation by two gathers, and two rounds of gather, scale and scatter-add. The reference starts with the very same
  operations, so nothing of them is opened here: the features the launch finds are the reference's propagated features as a
  function of the first three arguments (`features`), the bias row it finds is the fifth argument laid out as a row
  (`bias_row`). The host operations come in three stretches — before, inside and after the outlined `where` —, and each is read
  over the contents the stretch before it leaves, named and kept closed (`W0`, `W1`).
-/
import proofs.«163909_j4449586118805_1_alg».proof.Proof.Gen.KernelIdeal.Frame
import proofs.«163909_j4449586118805_1_alg».proof.Proof.Gen.ReferenceIdeal.Read
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.LaunchArrays

open Cert.KernelIdeal Cert.KernelIdeal.Gen
open Cert.ReferenceIdeal.Read (val_main_v3 val_main_v6 val_main_v8 val_main_v13 val_main_v14 val_main_v15 val_main_cst_2
  val_main_call0_v0 val_main_call0_v1 val_main_v57)

variable (m : (ℓ : Loc nD τ sig) → Buf (Elt Ideal) ℓ)

/-- The contents after two lines of host operations run one after the other are the second line's after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Reads one stretch of host operations, already spelt as a literal list, at a literal buffer: each operation's result at its own
    buffer is its function of its operands' contents, and at any other buffer what was there before. -/
macro "read_stretch" : tactic => `(tactic| (
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))))

/-- The device's contents after the host operations before the outlined `where`, -/
def W0 (c : Dev nD) : Valuation τ sig (Elt Ideal) := after hostOps0 (fun b => m (c, b))
/-- and after the `where`'s three. -/
def W1 (c : Dev nD) : Valuation τ sig (Elt Ideal) := after hostOps0_1 (W0 m c)

/-- What the launch finds is what the last stretch leaves of `W1`. -/
theorem V_split (c : Dev nD) (b : Ref sig .tc) : V m c b = after hostOps0_2 (W1 m c) (Proc.devRef .tc b) := by
  show after (List.flatten [hostOps0, hostOps0_1, hostOps0_2]) (fun b => m (c, b)) (Proc.devRef .tc b) = _
  rw [show List.flatten [hostOps0 (F := Ideal), hostOps0_1, hostOps0_2] = hostOps0 ++ (hostOps0_1 ++ hostOps0_2) from by
    simp only [List.flatten_cons, List.flatten_nil, List.append_nil], after_append, after_append]
  rfl

/-! ## Before the `where`: the degrees compared with zero, their inverse square roots, the zero -/

theorem W0_v13 (c : Dev nD) : W0 m c (Proc.devRef .tc main_v13) = val_main_v13 (F := Ideal) (m ((c : Thread nD τ).loc main_arg1)) (m ((c : Thread nD τ).loc main_arg2)) := by
  unfold W0
  simp only [hostOps0]
  read_stretch
  rfl

theorem W0_v14 (c : Dev nD) : W0 m c (Proc.devRef .tc main_v14) = val_main_v14 (F := Ideal) (m ((c : Thread nD τ).loc main_arg1)) (m ((c : Thread nD τ).loc main_arg2)) := by
  unfold W0
  simp only [hostOps0]
  read_stretch
  rfl

theorem W0_cst_2 (c : Dev nD) : W0 m c (Proc.devRef .tc main_cst_2) = val_main_cst_2 (F := Ideal) := by
  unfold W0
  simp only [hostOps0]
  read_stretch
  rfl

/-! ## After the `where` -/

/-- The inverse square roots where the degree is positive, zero elsewhere: the `where`'s select over what the first stretch
    left, the big operands kept closed. -/
theorem W1_v15 (c : Dev nD) : W1 m c (Proc.devRef .tc main_v15) = val_main_v15 (F := Ideal) (m ((c : Thread nD τ).loc main_arg1)) (m ((c : Thread nD τ).loc main_arg2)) := by
  unfold W1
  have e13 := W0_v13 m c
  have e14 := W0_v14 m c
  have ec := W0_cst_2 m c
  generalize W0 m c = W at e13 e14 ec ⊢
  simp only [hostOps0_1]
  read_stretch
  unfold val_main_v15 val_main_call0_v1 val_main_call0_v0
  rw [← e13, ← e14, ← ec]
  rfl

/-- The edge list's target column with the self loops appended, -/
theorem W1_v3 (c : Dev nD) : W1 m c (Proc.devRef .tc main_v3) = val_main_v3 (F := Ideal) (m ((c : Thread nD τ).loc main_arg1)) := by
  unfold W1 W0
  simp only [hostOps0, hostOps0_1]
  read_stretch
  rfl

/-- its source column with the self loops appended, -/
theorem W1_v6 (c : Dev nD) : W1 m c (Proc.devRef .tc main_v6) = val_main_v6 (F := Ideal) (m ((c : Thread nD τ).loc main_arg1)) := by
  unfold W1 W0
  simp only [hostOps0, hostOps0_1]
  read_stretch
  rfl

/-- the edge weights with the self loops' ones appended, -/
theorem W1_v8 (c : Dev nD) : W1 m c (Proc.devRef .tc main_v8) = val_main_v8 (F := Ideal) (m ((c : Thread nD τ).loc main_arg2)) := by
  unfold W1 W0
  simp only [hostOps0, hostOps0_1]
  read_stretch
  rfl

/-- and the features and the bias as launched. -/
theorem W1_arg0 (c : Dev nD) : W1 m c (Proc.devRef .tc main_arg0) = m ((c : Thread nD τ).loc main_arg0) := by
  unfold W1 W0
  simp only [hostOps0, hostOps0_1]
  read_stretch

theorem W1_arg4 (c : Dev nD) : W1 m c (Proc.devRef .tc main_arg4) = m ((c : Thread nD τ).loc main_arg4) := by
  unfold W1 W0
  simp only [hostOps0, hostOps0_1]
  read_stretch

/-! ## What the launch finds -/

/-- THE PROPAGATED FEATURES the launch finds are the reference's, as a function of the features, the edge list and the edge
    weights: the last stretch's gathers, products and scatter-adds over the closed results of the stretches before. -/
theorem features (c : Dev nD) :
    V m c main_v57 = val_main_v57 (F := Ideal) (m ((c : Thread nD τ).loc main_arg0)) (m ((c : Thread nD τ).loc main_arg1)) (m ((c : Thread nD τ).loc main_arg2)) := by
  refine (V_split m c main_v57).trans ?_
  generalize hW : W1 m c = W
  simp only [hostOps0_2]
  read_stretch
  subst hW
  rw [W1_v15, W1_v3, W1_v6, W1_v8, W1_arg0]
  rfl

/-- THE BIAS ROW the launch finds is the bias vector read along the row. -/
theorem bias_row (c : Dev nD) (q : Fin 64) :
    (V m c main_v58 : S1x64.Idx → EReal) (ix2 (0 : Fin 1) q) = (m ((c : Thread nD τ).loc main_arg4) : S64.Idx → EReal) (ix1 q) := by
  have e : (V m c main_v58 : S1x64.Idx → EReal) = shapeCast S1x64 (m ((c : Thread nD τ).loc main_arg4) : S64.Idx → EReal) shapeCasts_S64_S1x64 := by
    refine (V_split m c main_v58).trans ?_
    generalize hW : W1 m c = W
    simp only [hostOps0_2]
    read_stretch
    subst hW
    rw [W1_arg4]
    rfl
  rw [e]
  refine (shapeCast_addUnit_apply ![64] _ shapeCasts_S64_S1x64 (ix2 (0 : Fin 1) q)).trans (congrArg _ (funext fun a => ?_))
  match a with
  | ⟨0, _⟩ => rfl

end Cert.KernelIdeal.LaunchArrays

end
-- ==== Proof.ReferenceProjection.lean ====
/-
  The reference's last four operations are the projection: a `dot_general` contracting the feature array's columns
  with the weight matrix's rows, the bias vector laid out as a row and repeated down the rows, and their sum. Entry by entry
  this is `Cert.Projection.affine` of the propagated features, the weights and the bias.
-/
import proofs.«163909_j4449586118805_1_alg».proof.Proof.Gen.ReferenceIdeal.Read
import proofs.«163909_j4449586118805_1_alg».proof.Proof.Projection

noncomputable section

open scoped BigOperators

namespace Cert.ReferenceIdeal.RefProjection

open Cert.ReferenceIdeal Cert.ReferenceIdeal.Read Idealize.ShloMosaic Idealize.ShloMosaic.ValueIdx

/-- The reference's result, as a function of its five arguments, is the projection of its propagated features
    (`val_main_v57`: everything before the `dot_general`, left as it is) by the weights `x3` and the bias `x4`. -/
theorem result_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x64, .f32⟩ : BufTy).Contents (Elt Ideal))
    (x4 : (⟨S64, .f32⟩ : BufTy).Contents (Elt Ideal)) :
    val_main_v61 (F := Ideal) x0 x1 x2 x3 x4 = Cert.Projection.affine (val_main_v57 (F := Ideal) x0 x1 x2) x3 x4 := by
  funext i
  obtain ⟨r, q, rfl⟩ : ∃ (r : Fin 100000) (q : Fin 64), i = ix2 r q := ⟨i 0, i 1, eq_ix2 i⟩
  have el : ∀ k : Fin 64, lidx_main_v58 (ix2 r q) k = ix2 r k := fun k => funext fun a => Fin.ext (by
    match a with | ⟨0, _⟩ => rfl | ⟨1, _⟩ => rfl)
  have er : ∀ k : Fin 64, ridx_main_v58 (ix2 r q) k = ix2 k q := fun k => funext fun a => Fin.ext (by
    match a with | ⟨0, _⟩ => rfl | ⟨1, _⟩ => rfl)
  have eb : idx_main_v59 (idx_main_v60 (ix2 r q)) = ix1 q := funext fun a => Fin.ext (by
    match a with | ⟨0, _⟩ => rfl)
  rw [val_main_v61_apply, val_main_v58_apply, val_main_v60_apply, val_main_v59_apply, eb]
  simp only [el, er]
  rfl

end Cert.ReferenceIdeal.RefProjection

end
-- ==== Proof.lean ====
/-
  Two hops of graph propagation followed by a dense projection, `h ↦ h · W + b`, with the propagation on the host in both
  programs and only the projection in a kernel: ten grid points, each projecting a block of 10000 rows through the matrix
  unit. Over the extended reals the narrowing of the matrix unit's operands is the identity and its product into a zero
  accumulator is the plain sum over the 64 contracted positions, which is what the reference's `dot_general` is; the
  propagation before it is the same text in both programs and is carried as one closed function of the first three
  arguments. So both result arrays are `Cert.Projection.affine` of the propagated features, the weights and the bias:
  the kernel's by `Cert.KernelIdeal.RowBlocks.run` and `Cert.KernelIdeal.LaunchArrays`, the reference's by its generated run
  and `Cert.ReferenceIdeal.RefProjection.result_eq`. No law of the extended reals beyond reading both sums in the same order
  is used, so the precondition is never opened. The three frames are the generated ones; the idealization rewrote nothing.
-/
import proofs.«163909_j4449586118805_1_alg».proof.Defs
import proofs.«163909_j4449586118805_1_alg».proof.Proof.Gen.Kernel
import proofs.«163909_j4449586118805_1_alg».proof.Proof.Gen.Kernel.Skeleton
import proofs.«163909_j4449586118805_1_alg».proof.Proof.Gen.Kernel.Launch
import proofs.«163909_j4449586118805_1_alg».proof.Proof.Gen.Kernel.Points
import proofs.«163909_j4449586118805_1_alg».proof.Proof.Gen.Kernel.Frame
import proofs.«163909_j4449586118805_1_alg».proof.Proof.Gen.KernelIdeal
import proofs.«163909_j4449586118805_1_alg».proof.Proof.Gen.KernelIdeal.Skeleton
import proofs.«163909_j4449586118805_1_alg».proof.Proof.Gen.KernelIdeal.Launch
import proofs.«163909_j4449586118805_1_alg».proof.Proof.Gen.KernelIdeal.Points
import proofs.«163909_j4449586118805_1_alg».proof.Proof.Gen.KernelIdeal.Frame
import proofs.«163909_j4449586118805_1_alg».proof.Proof.Gen.KernelIdeal.Value
import proofs.«163909_j4449586118805_1_alg».proof.Proof.Gen.ReferenceIdeal
import proofs.«163909_j4449586118805_1_alg».proof.Proof.Gen.ReferenceIdeal.Run
import proofs.«163909_j4449586118805_1_alg».proof.Proof.Gen.ReferenceIdeal.Read
import proofs.«163909_j4449586118805_1_alg».proof.Proof.Gen.Pre_finite_inputs
import proofs.«163909_j4449586118805_1_alg».proof.Proof.Projection
import proofs.«163909_j4449586118805_1_alg».proof.Proof.RowBlocks
import proofs.«163909_j4449586118805_1_alg».proof.Proof.LaunchArrays
import proofs.«163909_j4449586118805_1_alg».proof.Proof.ReferenceProjection
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program's result as a function of the five arguments: the projection of the reference's propagated features
    (the launch finds them: `LaunchArrays.features`) by the weights (an argument no host operation writes) and the bias
    (the launch finds it as a row: `LaunchArrays.bias_row`). -/
theorem kernel_result (m : (ℓ : Loc Cert.KernelIdeal.nD Cert.KernelIdeal.τ Cert.KernelIdeal.sig) → Buf (Elt Ideal) ℓ)
    (c : Dev Cert.KernelIdeal.nD) :
    Cert.KernelIdeal.RowBlocks.result m c
      = Cert.Projection.affine
          (Cert.ReferenceIdeal.Read.val_main_v57 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)))
          (m ((c : Thread Cert.KernelIdeal.nD Cert.KernelIdeal.τ).loc Cert.KernelIdeal.main_arg3)) (m ((c : Thread Cert.KernelIdeal.nD Cert.KernelIdeal.τ).loc Cert.KernelIdeal.main_arg4)) := by
  have h0 : Cert.KernelIdeal.Gen.V m c (Pipeline.arrRef Cert.KernelIdeal.spec0 0)
      = Cert.ReferenceIdeal.Read.val_main_v57 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) :=
    Cert.KernelIdeal.LaunchArrays.features m c
  have h1 : Cert.KernelIdeal.Gen.V m c (Pipeline.arrRef Cert.KernelIdeal.spec0 1) = (m ((c : Thread Cert.KernelIdeal.nD Cert.KernelIdeal.τ).loc Cert.KernelIdeal.main_arg3)) :=
    Cert.KernelIdeal.Gen.V_main_arg3 m c
  have h2 : Cert.KernelIdeal.RowBlocks.biasRow m c = (m ((c : Thread Cert.KernelIdeal.nD Cert.KernelIdeal.τ).loc Cert.KernelIdeal.main_arg4)) :=
    funext fun j => (Cert.KernelIdeal.LaunchArrays.bias_row m c (j 0)).trans (congrArg _ (eq_ix1 j).symm)
  unfold Cert.KernelIdeal.RowBlocks.result
  rw [h0, h1, h2]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the projection of the same propagated features by the same weights and bias. -/
theorem algebraic : Cert.algebraic_KernelIdeal_ReferenceIdeal := by
  intro m ρ m' ρ' _ hagree
  refine ⟨fun c => Cert.KernelIdeal.RowBlocks.result m c, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.ReferenceIdeal.RefProjection.result_eq,
    (hagree c).1, (hagree c).2.1, (hagree c).2.2.1, (hagree c).2.2.2.1, (hagree c).2.2.2.2]
  exact (kernel_result m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
